-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩

abbrev nBuf : Space → Nat
  | .hbm => 41
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S_, .i32⟩
  | .hbm, ⟨4, _⟩ => ⟨S4096x4096, .i32⟩
  | .hbm, ⟨5, _⟩ => ⟨S4096x4096, .i1⟩
  | .hbm, ⟨6, _⟩ => ⟨S4096x4096, .i32⟩
  | .hbm, ⟨7, _⟩ => ⟨S_, .i32⟩
  | .hbm, ⟨8, _⟩ => ⟨S_, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S1, .i32⟩
  | .hbm, ⟨26, _⟩ => ⟨S_, .i32⟩
  | .hbm, ⟨27, _⟩ => ⟨S4096x4096x1, .i32⟩
  | .hbm, ⟨28, _⟩ => ⟨S4096x4096x1, .i1⟩
  | .hbm, ⟨29, _⟩ => ⟨S1x1x1, .i32⟩
  | .hbm, ⟨30, _⟩ => ⟨S4096x4096x1, .i32⟩
  | .hbm, ⟨31, _⟩ => ⟨S4096x4096x1, .i1⟩
  | .hbm, ⟨32, _⟩ => ⟨S4096x4096x1, .i1⟩
  | .hbm, ⟨33, _⟩ => ⟨S_, .i1⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S1x1, .f32⟩
  | .hbm, ⟨40, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .i32⟩
  | .local _ .vmem, ⟨5, _⟩ => ⟨S256x4096, .i32⟩
  | .local _ .vmem, ⟨6, _⟩ => ⟨S1x1, .f32⟩
  | .local _ .vmem, ⟨7, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_cst : Ref sig .tc := ⟨.hbm, 36, rfl⟩
abbrev main_call2_v14 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S4096x4096 : S_.BroadcastsInDim S4096x4096 (![] : Fin 0 → Fin S4096x4096.rank)
  natLt_1_32 : 1 < 32
  bcast_S_S_ : S_.BroadcastsInDim S_ (![] : Fin 0 → Fin S_.rank)
  reduceWindows_S4096x4096_S4096x4096_w1s1p0_0_w4096s1p4095_0 : S4096x4096.ReduceWindows (![1, 4096] : Fin 2 → Nat) ![1, 1] ![0, 4095] ![0, 0] S4096x4096
  h_S_ : 0 < S_.numel
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  gather_S4096x4096_S4096x4096x1_S4096x4096_n_1_0_0_1_2_11_wf : GatherDims.WF S4096x4096 S4096x4096x1 S4096x4096 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .i32 = 32 ∨ (Rect.block (s := S4096x4096) S256x4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S4096x4096_S4096x4096x1_S4096x4096_n_1_0_0_1_2_11 : GatherDims S4096x4096 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x4096_S4096x4096x1_S4096x4096_n_1_0_0_1_2_11_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S_, .i32⟩
  | .hbm, ⟨4, _⟩ => ⟨S4096x4096, .i32⟩
  | .hbm, ⟨5, _⟩ => ⟨S4096x4096, .i1⟩
  | .hbm, ⟨6, _⟩ => ⟨S4096x4096, .i32⟩
  | .hbm, ⟨7, _⟩ => ⟨S_, .i32⟩
  | .hbm, ⟨8, _⟩ => ⟨S_, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S1, .i32⟩
  | .hbm, ⟨26, _⟩ => ⟨S_, .i32⟩
  | .hbm, ⟨27, _⟩ => ⟨S4096x4096x1, .i32⟩
  | .hbm, ⟨28, _⟩ => ⟨S4096x4096x1, .i1⟩
  | .hbm, ⟨29, _⟩ => ⟨S1x1x1, .i32⟩
  | .hbm, ⟨30, _⟩ => ⟨S4096x4096x1, .i32⟩
  | .hbm, ⟨31, _⟩ => ⟨S4096x4096x1, .i1⟩
  | .hbm, ⟨32, _⟩ => ⟨S4096x4096x1, .i1⟩
  | .hbm, ⟨33, _⟩ => ⟨S_, .i1⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_cst : Ref sig .tc := ⟨.hbm, 36, rfl⟩
abbrev main_call2_v14 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_call3_v0 : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  natLt_1_32 : 1 < 32
  bcast_S_S_ : S_.BroadcastsInDim S_ (![] : Fin 0 → Fin S_.rank)
  reduceWindows_S4096x4096_S4096x4096_w1s1p0_0_w4096s1p4095_0 : S4096x4096.ReduceWindows (![1, 4096] : Fin 2 → Nat) ![1, 1] ![0, 4095] ![0, 0] S4096x4096
  h_S_ : 0 < S_.numel
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  reducesTo_S4096x4096_S_d0_1 : S4096x4096.ReducesTo [0, 1] S_
  gather_S4096x4096_S4096x4096x1_S4096x4096_n_1_0_0_1_2_11_wf : GatherDims.WF S4096x4096 S4096x4096x1 S4096x4096 [] [1] [0] [1] [0] 2 ![1, 1]

variable [Facts₀]

def gather_S4096x4096_S4096x4096x1_S4096x4096_n_1_0_0_1_2_11 : GatherDims S4096x4096 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x4096_S4096x4096x1_S4096x4096_n_1_0_0_1_2_11_wf

class Facts : Prop extends Facts₀ where

variable [Facts]
-- ==== Proof.Pieces.lean ====
/-
  What each control case of the body leaves behind, as the body's arithmetic applied to what it loaded.

  The body has three cases.  At the first grid point it resets the carried [1, 1] word to the splat of the zero word,
  reads it back, and stores the accumulated value over it; at the points in between it stores the accumulated value
  over the word the point before left; at the last point it does the same and then copies the carried word to the
  output.  In every case the carried word ends at the accumulating store's value of the three tiles the point loaded
  and of the word it started from (at the first point: the reset value), and at the last point the output is that
  same value.  Each is read off the one store that covers the [1, 1] buffer; loads of whole buffers read the contents
  they hold.
-/
import proofs.«175044_j48009144435087_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Between the first and the last point: the carried word ends at the accumulated value over what it held. -/
theorem carried_B (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .i32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 x1 : Vec F S256x4096 .f32) (x2 : Vec F S256x4096 .i32) (xs0 : Vec F S1x1 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  rw [View.canon_unit_zero hz]
  simp only [View.readAt_eq_ld, h1.read_unread, h2.read_unread, h3.read_unread, h5.read_unread,
    View.ld_unit_zero (S := S256x4096) hz, View.ld_unit_zero (S := S1x1) hz]

/-- At the first point: the carried word ends at the accumulated value over the reset value it read back. -/
theorem carried_A (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .i32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 x1 : Vec F S256x4096 .f32) (x2 : Vec F S256x4096 .i32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S256x4096) hz, View.ld_unit_zero (S := S1x1) hz]

/-- At the last point: the carried word ends at the accumulated value over what it held, -/
theorem carried_C (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 x1 : Vec F S256x4096 .f32) (x2 : Vec F S256x4096 .i32) (xs0 : Vec F S1x1 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S256x4096) hz, View.ld_unit_zero (S := S1x1) hz]

/-- and the output is the carried word just stored, read back. -/
theorem output_C (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 x1 : Vec F S256x4096 .f32) (x2 : Vec F S256x4096 .i32) (xs0 : Vec F S1x1 .f32) :
    out0_C_3 c i a1 h1 a2 h2 a3 h3 a4 h4 a5 h5 hc0 hc1 x0 x1 x2 xs0 = k0_pay2 x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz]
  simp only [View.readCov_unit_zero (S := S1x1) _ hz, View.readAt_eq_ld, h1.read_unread, h2.read_unread, h3.read_unread, h5.read_unread,
    View.ld_unit_zero (S := S256x4096) hz, View.ld_unit_zero (S := S1x1) hz]

end Cert.KernelIdeal.Pieces

end
-- ==== Proof.Spec.lean ====
/-
  Masked squared error, summed: the specification both programs meet.

  For a prediction matrix `P`, a matrix `G` of targets already gathered into place, and an integer mask `K`, all
  4096 x 4096, entry `(i, c)` contributes `(P - G)^2` where the mask is nonzero and the zero word elsewhere, and the
  result is the zero word plus the sum of all contributions.  The sum is written row by row (`rowSum`), and the rows
  are also grouped into 16 tiles of 256 consecutive rows (`tileSum`); `upTo n` is the zero word plus the first
  `n + 1` tiles.  On the extended reals addition is commutative and associative (no cancellation is used, so nothing
  here asks for finite entries), hence the tiles in order add up to the whole: `upTo_last`.
-/
import Idealize.ShloMosaic.PureOps.Ideal
import Idealize.ShloMosaic.PureOps.Ideal.Laws
import Idealize.ShloMosaic.Lib.ValueIdx

noncomputable section

namespace Cert.MaskedSq

open Idealize.ShloMosaic Idealize.ShloMosaic.ValueIdx

/-- The matrices' shape and a tile's. -/
abbrev Mat : Shape := ⟨2, ![4096, 4096]⟩
abbrev Tile : Shape := ⟨2, ![256, 4096]⟩

/-- The zero word, as both programs spell it; it is never evaluated. -/
abbrev zero : Ideal .f32 := FloatOps.ofBits .f32 0x00000000#32

/-- One entry's contribution: the squared difference where the mask is nonzero, the zero word elsewhere. -/
def entry (p g : Ideal .f32) (k : BitVec 32) : Ideal .f32 :=
  Scalar.select (IntOp.cmpi .ne k 0#32) (FloatOps.mulf (FloatOps.subf p g) (FloatOps.subf p g)) zero

variable (P G : Mat.Idx → Ideal .f32) (K : Mat.Idx → BitVec 32)

/-- Row `i`'s contributions, summed over the columns. -/
def rowSum (i : Fin 4096) : Ideal .f32 := ∑ c : Fin 4096, entry (P (ix2 i c)) (G (ix2 i c)) (K (ix2 i c))

/-- The result: the zero word plus every row's sum. -/
def total : Ideal .f32 := zero + ∑ i : Fin 4096, rowSum P G K i

/-- Row `r` of tile `k` (a tile is 256 consecutive rows).  Total on the naturals; for `k < 16` nothing wraps. -/
def rowOf (k : ℕ) (r : Fin 256) : Fin 4096 := ⟨(256 * k + r.val) % 4096, Nat.mod_lt _ (by norm_num)⟩

theorem rowOf_val {k : ℕ} (hk : k < 16) (r : Fin 256) : (rowOf k r).val = 256 * k + r.val := by
  have := r.isLt
  exact Nat.mod_eq_of_lt (by omega)

/-- Tile `k`'s contributions: its 256 rows' sums. -/
def tileSum (k : ℕ) : Ideal .f32 := ∑ r : Fin 256, rowSum P G K (rowOf k r)

/-- The zero word plus tiles `0 … n`, in order. -/
def upTo (n : ℕ) : Ideal .f32 := zero + ∑ k ∈ Finset.range (n + 1), tileSum P G K k

theorem upTo_zero : upTo P G K 0 = zero + tileSum P G K 0 := by
  unfold upTo; rw [Finset.sum_range_one]

theorem upTo_succ (n : ℕ) : upTo P G K (n + 1) = upTo P G K n + tileSum P G K (n + 1) := by
  unfold upTo; rw [Finset.sum_range_succ _ (n + 1), add_assoc]

/-- A sum over `a * b` consecutive positions, grouped into `a` runs of `b`. -/
theorem sum_runs {M : Type*} [AddCommMonoid M] (a b : ℕ) (h : Fin (a * b) → M) :
    ∑ i, h i = ∑ t : Fin a, ∑ r : Fin b, h (finProdFinEquiv (t, r)) := by
  rw [← Equiv.sum_comp finProdFinEquiv h, Fintype.sum_prod_type]

/-- The sixteen tiles in order are all the rows: the running sum after the last tile is the result. -/
theorem upTo_last : upTo P G K 15 = total P G K := by
  unfold upTo total
  congr 1
  rw [Finset.sum_range, sum_runs 16 256 (rowSum P G K)]
  refine Finset.sum_congr rfl fun t _ => ?_
  unfold tileSum
  refine Finset.sum_congr rfl fun r _ => ?_
  congr 1
  apply Fin.ext
  rw [rowOf_val t.isLt]
  show 256 * t.val + r.val = r.val + 256 * t.val
  omega

end Cert.MaskedSq

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.TileValue.lean ====
/-
  The kernel body's arithmetic, read over the extended reals at the one index of its [1, 1] results.

  At a grid point the body holds a tile of 256 rows of the prediction, of the gathered target and of the mask, and the
  [1, 1] word carried from the point before.  It masks the squared difference entry by entry, sums each row over its
  4096 columns, sums the 256 row sums, and adds that to the carried word.  Read at index (0, 0) that is the carried
  word plus the double sum, over the tile's rows and columns, of the entries' contributions.  At the first point the
  carried word is the splat of the zero word.
-/
import proofs.«175044_j48009144435087_1_alg».proof.Proof.Gen.KernelIdeal.Skeleton
import proofs.«175044_j48009144435087_1_alg».proof.Proof.Spec
import proofs.«175044_j48009144435087_1_alg».proof.Proof.LibLaneSum
import proofs.«175044_j48009144435087_1_alg».proof.Proof.LibColumn
import Idealize.ShloMosaic.Lib.Pipeline.Value
import Idealize.ShloMosaic.Lib.ValueLayout

noncomputable section

namespace Cert.KernelIdeal.TileValue

open Cert.KernelIdeal Cert.KernelIdeal.Gen Idealize.ShloMosaic Idealize.ShloMosaic.ValueIdx Cert.MaskedSq

/-- The masked squared difference of a tile, as the body computes it, at entry `(r, c)`: that entry's contribution. -/
theorem masked_apply (x0 x1 : FVec Ideal S256x4096 .f32) (x2 : IVec S256x4096 32) (r : Fin 256) (c : Fin 4096) :
    select (cmpi .ne x2 (broadcast S256x4096 (0#32 : BitVec 32)))
        (mulf (subf x0 x1) (subf x0 x1)) (broadcast S256x4096 (Scalar.ofBits (F := Ideal) .f32 0x00000000#32)) (ix2 r c)
      = entry (x0 (ix2 r c)) (x1 (ix2 r c)) (x2 (ix2 r c)) := rfl

/-- The tile's contributions summed row by row and then over the rows, at the one index of the [1, 1] result. -/
theorem tile_total (v : FVec Ideal S256x4096 .f32)
    (h1 : S256x4096.Reduces [1] S256) (h2 : S256.ShapeCasts S256x1) (h3 : S256x1.Reduces [0] S1) (h4 : S1.ShapeCasts S1x1)
    (hφ : FKind.Formats FTy.f32) (ha : (0x00000000#32 : BitVec FTy.f32.bits) = FKind.add.neutral .f32 hφ) :
    shapeCast S1x1 (multiReduction .add [0] S1 (shapeCast S256x1 (multiReduction .add [1] S256 v 0x00000000#32 h1 hφ ha) h2)
        0x00000000#32 h3 hφ ha) h4 (ix2 (0 : Fin 1) (0 : Fin 1))
      = ∑ r : Fin 256, ∑ c : Fin 4096, v (ix2 r c) := by
  refine (shapeCast_a_1a_apply _ h4 (0 : Fin 1) (0 : Fin 1)).trans ?_
  refine (Cert.LaneSum.sum_first2 _ 0x00000000#32 h3 hφ ha (0 : Fin 1)).trans ?_
  refine Finset.sum_congr rfl fun r _ => ?_
  refine (Cert.GraphConv.Column.shapeCast_a_a1_apply _ h2 r (0 : Fin 1)).trans ?_
  exact Cert.LaneSum.sum_last2 v 0x00000000#32 h1 hφ ha r

/-- The accumulating store's value at its one index: the carried word plus the tile's contributions. -/
theorem pay2_apply (x0 x1 : FVec Ideal S256x4096 .f32) (x2 : IVec S256x4096 32) (xs : FVec Ideal S1x1 .f32) :
    k0_pay2 (F := Ideal) x0 x1 x2 xs (ix2 (0 : Fin 1) (0 : Fin 1))
      = xs (ix2 (0 : Fin 1) (0 : Fin 1))
        + ∑ r : Fin 256, ∑ c : Fin 4096, entry (x0 (ix2 r c)) (x1 (ix2 r c)) (x2 (ix2 r c)) := by
  unfold k0_pay2
  simp only [shapeCast_self]
  show xs (ix2 (0 : Fin 1) (0 : Fin 1)) + _ = _
  congr 1
  refine (tile_total _ _ _ _ _ _ _).trans ?_
  rfl

/-- The first point's reset value at its one index: the zero word. -/
theorem pay1_apply (j : S1x1.Idx) : k0_pay1 (F := Ideal) j = zero := by
  unfold k0_pay1
  simp only [shapeCast_self]
  rfl

end Cert.KernelIdeal.TileValue

end
-- ==== Proof.Blocks.lean ====
/-
  The windows' blocks, read by coordinates.

  Each of the three input windows walks its 4096 x 4096 array in tiles of 256 rows: at grid point `t` its block is
  rows `256 t … 256 t + 255`, every column.  So the block's entry `(r, c)` is the array's entry
  `(256 t + r, c)` — the row the specification calls `rowOf t r`.  The lemmas are stated for an arbitrary array of
  the window's type: what the array holds plays no part.
-/
import proofs.«175044_j48009144435087_1_alg».proof.Proof.Gen.KernelIdeal.Frame
import proofs.«175044_j48009144435087_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx
  Idealize.SL.Sem Cert.MaskedSq

variable {F : FTy → Type} [FloatOps F]

/-- Every input window's block index at point `t` is `(t, 0)`: decided once over the grid. -/
theorem index_facts0 : ∀ t : Fin cfg0.N, win0_0.index t (0 : Fin 2) = t.val ∧ win0_0.index t (1 : Fin 2) = 0 :=
  (by decide +kernel : ∀ t : Fin grid0.N, _)
theorem index_facts1 : ∀ t : Fin cfg0.N, win0_1.index t (0 : Fin 2) = t.val ∧ win0_1.index t (1 : Fin 2) = 0 :=
  (by decide +kernel : ∀ t : Fin grid0.N, _)
theorem index_facts2 : ∀ t : Fin cfg0.N, win0_2.index t (0 : Fin 2) = t.val ∧ win0_2.index t (1 : Fin 2) = 0 :=
  (by decide +kernel : ∀ t : Fin grid0.N, _)

theorem val_lt (t : Fin cfg0.N) : t.val < 16 := lt_of_lt_of_eq t.isLt (show cfg0.N = 16 from N_0)

/-- Window 0's block at point `t`, read off ANY array of the window's type, at entry `(r, col)`. -/
theorem block0_read (c : Dev nD) (A : Buf (Elt F) ((c : Thread nD τ).loc main_arg0)) (t : Fin cfg0.N) (r : Fin 256) (col : Fin 4096) :
    (((cfg0.win 0).blk t).view.read (Elt F) A : Vec F S256x4096 .f32) (ix2 r col) = A (ix2 (rowOf t.val r) col) := by
  rw [View.read_apply]
  refine congrArg A (funext fun a => Fin.ext ?_)
  have hr := r.isLt
  have ht := val_lt t
  match a with
  | ⟨0, _⟩ =>
    show win0_0.index t (0 : Fin 2) * 256 + 1 * r.val = (rowOf t.val r).val
    rw [(index_facts0 t).1, rowOf_val ht]; omega
  | ⟨1, _⟩ =>
    show win0_0.index t (1 : Fin 2) * 4096 + 1 * col.val = col.val
    rw [(index_facts0 t).2]; omega

/-- Window 1's block at point `t`, read off ANY array of the window's type, at entry `(r, col)`. -/
theorem block1_read (c : Dev nD) (A : Buf (Elt F) ((c : Thread nD τ).loc main_v7)) (t : Fin cfg0.N) (r : Fin 256) (col : Fin 4096) :
    (((cfg0.win 1).blk t).view.read (Elt F) A : Vec F S256x4096 .f32) (ix2 r col) = A (ix2 (rowOf t.val r) col) := by
  rw [View.read_apply]
  refine congrArg A (funext fun a => Fin.ext ?_)
  have hr := r.isLt
  have ht := val_lt t
  match a with
  | ⟨0, _⟩ =>
    show win0_1.index t (0 : Fin 2) * 256 + 1 * r.val = (rowOf t.val r).val
    rw [(index_facts1 t).1, rowOf_val ht]; omega
  | ⟨1, _⟩ =>
    show win0_1.index t (1 : Fin 2) * 4096 + 1 * col.val = col.val
    rw [(index_facts1 t).2]; omega

/-- Window 2's block at point `t`, read off ANY array of the window's type, at entry `(r, col)`. -/
theorem block2_read (c : Dev nD) (A : Buf (Elt F) ((c : Thread nD τ).loc main_arg2)) (t : Fin cfg0.N) (r : Fin 256) (col : Fin 4096) :
    (((cfg0.win 2).blk t).view.read (Elt F) A : Vec F S256x4096 .i32) (ix2 r col) = A (ix2 (rowOf t.val r) col) := by
  rw [View.read_apply]
  refine congrArg A (funext fun a => Fin.ext ?_)
  have hr := r.isLt
  have ht := val_lt t
  match a with
  | ⟨0, _⟩ =>
    show win0_2.index t (0 : Fin 2) * 256 + 1 * r.val = (rowOf t.val r).val
    rw [(index_facts2 t).1, rowOf_val ht]; omega
  | ⟨1, _⟩ =>
    show win0_2.index t (1 : Fin 2) * 4096 + 1 * col.val = col.val
    rw [(index_facts2 t).2]; omega

/-- The same for the block as the frame names it, off the array the region finds for window 0. -/
theorem iblk0_apply (m : (ℓ : Loc nD τ sig) → Buf (Elt F) ℓ) (c : Dev nD) (t : Fin cfg0.N) (r : Fin 256) (col : Fin 4096) :
    (iblk m c 0 t : Vec F S256x4096 .f32) (ix2 r col) = V m c (Pipeline.arrRef spec0 0) (ix2 (rowOf t.val r) col) :=
  block0_read c (V m c (Pipeline.arrRef spec0 0)) t r col

/-- The same for the block as the frame names it, off the array the region finds for window 1. -/
theorem iblk1_apply (m : (ℓ : Loc nD τ sig) → Buf (Elt F) ℓ) (c : Dev nD) (t : Fin cfg0.N) (r : Fin 256) (col : Fin 4096) :
    (iblk m c 1 t : Vec F S256x4096 .f32) (ix2 r col) = V m c (Pipeline.arrRef spec0 1) (ix2 (rowOf t.val r) col) :=
  block1_read c (V m c (Pipeline.arrRef spec0 1)) t r col

/-- The same for the block as the frame names it, off the array the region finds for window 2. -/
theorem iblk2_apply (m : (ℓ : Loc nD τ sig) → Buf (Elt F) ℓ) (c : Dev nD) (t : Fin cfg0.N) (r : Fin 256) (col : Fin 4096) :
    (iblk m c 2 t : Vec F S256x4096 .i32) (ix2 r col) = V m c (Pipeline.arrRef spec0 2) (ix2 (rowOf t.val r) col) :=
  block2_read c (V m c (Pipeline.arrRef spec0 2)) t r col

end Cert.KernelIdeal.Blocks

end
-- ==== Proof.Accum.lean ====
/-
  The accumulation over the sixteen grid points.

  The carried [1, 1] word after point `n` is the zero word plus the contributions of tiles `0 … n`, in order — the
  specification's `upTo n` of the three arrays the region finds on entry.  By induction on the point: the first point
  resets to the zero word and adds tile 0; every later point adds its tile to what the point before left.  At the last
  point the body also copies the carried word to the output, so the output block there is `upTo 15`, which is the
  whole sum (`upTo_last`).
-/
import proofs.«175044_j48009144435087_1_alg».proof.Proof.Pieces
import proofs.«175044_j48009144435087_1_alg».proof.Proof.TileValue
import proofs.«175044_j48009144435087_1_alg».proof.Proof.Blocks

noncomputable section

namespace Cert.KernelIdeal.Accum

open Cert.KernelIdeal Cert.KernelIdeal.Gen Idealize.ShloMosaic Idealize.ShloMosaic.TcCoe Idealize.ShloMosaic.ValueIdx
  Idealize.SL.Sem Cert.MaskedSq

variable (m : (ℓ : Loc nD τ sig) → Buf (Elt Ideal) ℓ)

/-- The prediction, the gathered target and the mask as the region finds them. -/
abbrev P (c : Dev nD) : Mat.Idx → Ideal .f32 := V m c (Pipeline.arrRef spec0 0)
abbrev G (c : Dev nD) : Mat.Idx → Ideal .f32 := V m c (Pipeline.arrRef spec0 1)
abbrev K (c : Dev nD) : Mat.Idx → BitVec 32 := V m c (Pipeline.arrRef spec0 2)

/-- The one index of a [1, 1] array. -/
theorem idx11 (j : S1x1.Idx) : j = ix2 (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-- Tile `t`'s contributions, written over the point's three blocks, are the specification's tile sum of the arrays. -/
theorem tile_eq (c : Dev nD) (t : Fin cfg0.N) :
    (∑ r : Fin 256, ∑ col : Fin 4096,
        entry ((iblk m c 0 t : Vec Ideal S256x4096 .f32) (ix2 r col)) ((iblk m c 1 t : Vec Ideal S256x4096 .f32) (ix2 r col))
          ((iblk m c 2 t : Vec Ideal S256x4096 .i32) (ix2 r col)))
      = tileSum (P m c) (G m c) (K m c) t.val := by
  unfold tileSum rowSum
  refine Finset.sum_congr rfl fun r _ => Finset.sum_congr rfl fun col _ => ?_
  rw [Blocks.iblk0_apply m c t r col, Blocks.iblk1_apply m c t r col, Blocks.iblk2_apply m c t r col]

/-- At point `t`, the accumulating store's value over the point's three blocks and a carried word `xs`: that word plus
    tile `t`'s contributions. -/
theorem point_value (c : Dev nD) (t : Fin cfg0.N) (xs : FVec Ideal S1x1 .f32) :
    k0_pay2 (F := Ideal) (iblk m c 0 t) (iblk m c 1 t) (iblk m c 2 t) xs (ix2 (0 : Fin 1) (0 : Fin 1))
      = xs (ix2 (0 : Fin 1) (0 : Fin 1)) + tileSum (P m c) (G m c) (K m c) t.val :=
  (TileValue.pay2_apply (iblk m c 0 t) (iblk m c 1 t) (iblk m c 2 t) xs).trans
    (congrArg (fun s => xs (ix2 (0 : Fin 1) (0 : Fin 1)) + s) (tile_eq m c t))

/-- The carried word after point `n` is the running sum through tile `n`. -/
theorem carried_eq (c : Dev nD) : ∀ (n : ℕ) (h : n < cfg0.N),
    (outsAt0 m c n h).2 (ix2 (0 : Fin 1) (0 : Fin 1)) = upTo (P m c) (G m c) (K m c) n
  | 0, h => by
    rw [outsAt0_A m c ⟨0, h⟩ rfl (by dsimp only; omega)]
    dsimp only
    rw [Pieces.carried_A]
    refine (point_value m c ⟨0, h⟩ _).trans ?_
    rw [TileValue.pay1_apply, upTo_zero (P m c) (G m c) (K m c)]
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [Pieces.carried_C]
      refine (point_value m c ⟨n + 1, h⟩ _).trans ?_
      rw [upTo_succ, ← carried_eq c n (Nat.lt_of_succ_lt h)]
      rfl
    · rw [outsAt0_B m c ⟨n + 1, h⟩ h0 h1]
      dsimp only
      rw [Pieces.carried_B]
      refine (point_value m c ⟨n + 1, h⟩ _).trans ?_
      rw [upTo_succ, ← carried_eq c n (Nat.lt_of_succ_lt h)]
      rfl

/-- The output block after the last point: every entry (there is one) is the whole sum. -/
theorem output_eq (c : Dev nD) (t : Fin cfg0.N) (ht : t.val % 16 = 15) :
    (outsAt0 m c t.val t.isLt).1 = fun _ => total (P m c) (G m c) (K m c) := by
  have hN : cfg0.N = 16 := N_0
  obtain ⟨n, hn⟩ := t
  have h15 : n = 15 := by dsimp only at ht; omega
  subst h15
  rw [outsAt0_C m c ⟨15, hn⟩ (by dsimp only; omega) ht]
  dsimp only
  rw [Pieces.output_C]
  funext j
  rw [idx11 j]
  refine (point_value m c ⟨15, hn⟩ _).trans ?_
  refine Eq.trans ?_ (upTo_last (P m c) (G m c) (K m c))
  refine Eq.trans ?_ (upTo_succ (P m c) (G m c) (K m c) 14).symm
  exact congrArg (fun s => s + tileSum (P m c) (G m c) (K m c) 15) (carried_eq m c 14 (by omega))

end Cert.KernelIdeal.Accum

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.PreludeK.lean ====
/-
  The gathered target the kernel's second window stages.

  Before the region the host computes, from the mask, each position's clipped rank within its row, and gathers the
  target along each row at those ranks.  The array the region finds for its second window is that gathered target of
  the two argument arrays.  It is read in two stages, because the rank feeds the gather in several places: the
  stretches up to the clip leave the rank of the mask (and do not touch the target); the last stretch leaves the
  gather of whatever target and rank it finds.
-/
import proofs.«175044_j48009144435087_1_alg».proof.Proof.Gen.KernelIdeal.Frame
import proofs.«175044_j48009144435087_1_alg».proof.Proof.LibFold
import proofs.«175044_j48009144435087_1_alg».proof.Proof.LibTypedRef
import Idealize.ShloMosaic.Lib.StableHlo.Run

noncomputable section

namespace Cert.KernelIdeal.Prelude

open Cert.KernelIdeal Cert.KernelIdeal.Facts₀ Idealize.ShloMosaic Idealize.ShloMosaic.TcCoe Idealize.SL.Sem
  Idealize.ShloMosaic.StableHlo

variable {F : FTy → Type} [FloatOps F]

/-- The clipped rank of each masked position within its row: the running count of nonzero mask entries along the row
    (a windowed sum over the 4096 positions up to and including the entry's own), less one, and not below zero. -/
def rank (mask : IVec S4096x4096 32) : IVec S4096x4096 32 :=
  maxsi (broadcastInDim S4096x4096 ![] bcast_S_S4096x4096 (id (constantI S_ 32 0#32)))
    (subi
      (Host.reduceWindow IntOp.addi ![1, 4096] ![1, 1] ![0, 4095] ![0, 0]
        (extui 32 (cmpi .ne mask (broadcastInDim S4096x4096 ![] bcast_S_S4096x4096 (constantI S_ 32 0#32))) natLt_1_32)
        (broadcastInDim S_ ![] bcast_S_S_ (constantI S_ 32 0#32))
        reduceWindows_S4096x4096_S4096x4096_w1s1p0_0_w4096s1p4095_0 h_S_)
      (broadcastInDim S4096x4096 ![] bcast_S_S4096x4096 (constantI S_ 32 1#32)))

/-- Each row of `tgt` read at the row's indices `idx` (a negative index counted from the row's end; an index outside
    the row reads the not-a-number word instead). -/
def takeAlong (tgt : FVec F S4096x4096 .f32) (idx : IVec S4096x4096 32) : FVec F S4096x4096 .f32 :=
  let v4 : IVec S4096x4096 32 :=
    select (cmpi .slt idx (broadcastInDim S4096x4096 ![] bcast_S_S4096x4096 (constantI S_ 32 0#32)))
      (addi idx (broadcastInDim S4096x4096 ![] bcast_S_S4096x4096 (constantI S_ 32 4096#32))) idx
  let v5 : IVec S4096x4096x1 32 := shapeCast S4096x4096x1 v4 shapeCasts_S4096x4096_S4096x4096x1
  select
    (Host.reduce IntOp.andi
      (andi (cmpi .sge v5 (broadcastInDim S4096x4096x1 ![] bcast_S_S4096x4096x1 (constantI S_ 32 0#32)))
        (cmpi .sle v5 (broadcastInDim S4096x4096x1 ![0, 1, 2] bcast_S1x1x1_S4096x4096x1_0_1_2
          (broadcastInDim S1x1x1 ![2] bcast_S1_S1x1x1_2 (constantI S1 32 4095#32)))))
      (constantI S_ 1 1#1) reducesTo_S4096x4096x1_S4096x4096_d2 h_S_)
    (Host.gather gather_S4096x4096_S4096x4096x1_S4096x4096_n_1_0_0_1_2_11 tgt v5)
    (broadcastInDim S4096x4096 ![] bcast_S_S4096x4096 (constant S_ .f32 0x7FC00000#32))

/-- The target gathered into place: row by row, `tgt` at the clipped ranks of the mask. -/
def gathered (tgt : FVec F S4096x4096 .f32) (mask : IVec S4096x4096 32) : FVec F S4096x4096 .f32 :=
  takeAlong tgt (rank mask)

attribute [local irreducible] Host.reduceWindow in
/-- The stretches up to the clip leave, at the clip's result, the rank of the mask they find. -/
theorem rank_stage (W : Valuation τ sig (Elt F)) :
    after (Gen.hostOps0 ++ (Gen.hostOps0_1 ++ (Gen.hostOps0_2 ++ Gen.hostOps0_3))) W (main_v6 : DevRef τ sig)
      = rank (W (main_arg2 : DevRef τ sig)) := by
  simp only [Gen.hostOps0, Gen.hostOps0_1, Gen.hostOps0_2, Gen.hostOps0_3, List.cons_append, List.nil_append]
  after_results_simp
  simp only [TRef.ofBuf_toBuf, TRef.toBuf_ofBuf]
  rfl

/-- They do not write the target. -/
theorem target_stage (W : Valuation τ sig (Elt F)) :
    after (Gen.hostOps0 ++ (Gen.hostOps0_1 ++ (Gen.hostOps0_2 ++ Gen.hostOps0_3))) W (main_arg1 : DevRef τ sig)
      = W (main_arg1 : DevRef τ sig) := by
  simp only [Gen.hostOps0, Gen.hostOps0_1, Gen.hostOps0_2, Gen.hostOps0_3, List.cons_append, List.nil_append]
  after_results_simp

attribute [local irreducible] Host.reduce Host.gather in
/-- The last stretch leaves, at its result, the gather of the target and the rank it finds. -/
theorem gather_stage (W : Valuation τ sig (Elt F)) :
    after Gen.hostOps0_4 W (main_v7 : DevRef τ sig)
      = takeAlong (W (main_arg1 : DevRef τ sig)) (W (main_v6 : DevRef τ sig)) := by
  simp only [Gen.hostOps0_4]
  after_results_simp
  simp only [TRef.ofBuf_toBuf, TRef.toBuf_ofBuf]
  rfl

variable (m : (ℓ : Loc nD τ sig) → Buf (Elt F) ℓ)

/-- What the region finds for its second window: the gathered target of the arguments. -/
theorem V_main_v7 (c : Dev nD) :
    Gen.V m c main_v7 = gathered (m ((c : Thread nD τ).loc main_arg1)) (m ((c : Thread nD τ).loc main_arg2)) := by
  dsimp only [Gen.V, Gen.V0]
  simp only [List.flatten_cons, List.flatten_nil, List.append_nil]
  rw [show Gen.hostOps0 ++ (Gen.hostOps0_1 ++ (Gen.hostOps0_2 ++ (Gen.hostOps0_3 ++ Gen.hostOps0_4)))
      = (Gen.hostOps0 ++ (Gen.hostOps0_1 ++ (Gen.hostOps0_2 ++ Gen.hostOps0_3))) ++ (Gen.hostOps0_4 : List (HloOp τ sig (Elt F)))
      from by simp only [List.append_assoc]]
  rw [after_append, gather_stage, target_stage, rank_stage]
  rfl

end Cert.KernelIdeal.Prelude

end
-- ==== Proof.KernelRun.lean ====
/-
  The kernel program's run, read: what its result holds.

  The output window's one [1, 1] block is written back once, at the last grid point, holding the whole sum; that block
  is the whole [1, 1] array, so the array ends at the whole sum.  The one host operation after the region reshapes
  the [1, 1] array to a rank-0 result, which therefore holds the whole sum too — the specification's `total` of the
  three arrays the region found on entry.  The argument arrays end as launched.
-/
import proofs.«175044_j48009144435087_1_alg».proof.Proof.Accum
import proofs.«175044_j48009144435087_1_alg».proof.Proof.PreludeK
import Idealize.ShloMosaic.Lib.Pipeline.Value
import Idealize.ShloMosaic.Lib.StableHlo.Run

noncomputable section

namespace Cert.KernelIdeal.KernelRun

open Cert.KernelIdeal Cert.KernelIdeal.Gen Idealize.ShloMosaic Idealize.ShloMosaic.TcCoe Idealize.ShloMosaic.ValueIdx
  Idealize.SL.Sem Cert.MaskedSq

variable (m : (ℓ : Loc nD τ sig) → Buf (Elt Ideal) ℓ) (ρ : Dev nD → PrngReg)

/-- The whole sum of the arrays the region finds. -/
abbrev sumOf (c : Dev nD) : Ideal .f32 := total (Accum.P m c) (Accum.G m c) (Accum.K m c)

/-- The output array's contents after the run: its one entry the whole sum. -/
abbrev result (c : Dev nD) : Buf (Elt Ideal) ((c : Thread nD τ).loc main_v8) := fun _ => sumOf m c

/-- The one write-back, at the last point, writes the whole sum. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  show (cfg0.win 3).cut (grid0.coords t) ((dats m 0 c).after 3 t) = _
  rw [after0_3, Accum.output_eq m c t h15]
  rfl

/-- So the output array ends holding the whole sum: the last point's block covers it. -/
theorem final_o (c : Dev nD) : (dats m 0 c).arrAt 3 cfg0.N = result m c :=
  (dats m 0 c).arrAt_eq_of_cover 3 (result m c) (flushed_eq m c) fun i =>
    ⟨t0_15, (flush0_3 t0_15).mpr rfl, by
      show i ∈ ((View.whole main_v8).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1 from by decide +kernel]; omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]; omega⟩

/-- The reshape after the region carries the output array's one entry to the rank-0 result. -/
theorem tail_eq (c : Dev nD) :
    Pipeline.afterTail₀ cfgs (dats m) 0 (V0 m) [hostOps1] c main_v9 = fun _ => sumOf m c := by
  unfold Pipeline.afterTail₀
  show StableHlo.after hostOps1 _ (Proc.devRef .tc main_v9) = _
  after_results
  rw [Pipeline.withArrays_arr spec0 launch0.win.arr_inj c _ _ 3, final_o]
  rfl

/-- The run, read: the result at the whole sum of what the region found, the arguments unchanged. -/
theorem run : θ_run defs (onTc (τ := τ) (main (F := Ideal))) ⟨m, fun _ => 0, ρ⟩ fun r => ∀ c : Dev nD,
      r.2.mem ((c.tc : Thread nD τ).loc main_v9) = (fun _ => sumOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

/-- The whole sum of what the region found is the specification's total of the launch contents: the prediction and the
    mask are as launched, and the second window's array is the gathered target of the launched target and mask. -/
theorem sumOf_eq (c : Dev nD) :
    sumOf m c = total (m ((c : Thread nD τ).loc main_arg0))
      (Prelude.gathered (m ((c : Thread nD τ).loc main_arg1)) (m ((c : Thread nD τ).loc main_arg2)))
      (m ((c : Thread nD τ).loc main_arg2)) := by
  have hP : Accum.P m c = m ((c : Thread nD τ).loc main_arg0) := V_main_arg0 m c
  have hG : Accum.G m c = Prelude.gathered (m ((c : Thread nD τ).loc main_arg1)) (m ((c : Thread nD τ).loc main_arg2)) :=
    Prelude.V_main_v7 m c
  have hK : Accum.K m c = m ((c : Thread nD τ).loc main_arg2) := V_main_arg2 m c
  show total (Accum.P m c) (Accum.G m c) (Accum.K m c) = _
  rw [hP, hG, hK]

end Cert.KernelIdeal.KernelRun

end
-- ==== Proof.RefRun.lean ====
/-
  The reference's run, read back.

  The reference is a straight line of 43 host operations once its outlined functions are written out at their calls:
  fourteen that compute, from the mask, each position's clipped rank within its row; twenty-two that gather the target
  along each row at those ranks; and seven that mask the squared difference of the prediction and the gathered target
  and sum it over every entry.  Every weakly fair execution ends with each buffer at the line's fold over the launch
  contents.  The fold is read stretch by stretch: the rank of the mask; the gather of the target at whatever rank it
  finds; the masked sum of whatever prediction, gathered target and mask bits it finds.
-/
import proofs.«175044_j48009144435087_1_alg».proof.Proof.Gen.ReferenceIdeal
import proofs.«175044_j48009144435087_1_alg».proof.Proof.LibFold
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The operations up to the clip: the mask's nonzero test, the running count along each row, less one, not below zero. -/
abbrev opsRank : List (HloOp τ sig (Elt F)) :=
  [ StableHlo.nullary main_c (constantI S_ 32 0#32),
    StableHlo.unary main_c main_v0 (broadcastInDim S4096x4096 ![] bcast_S_S4096x4096 : (⟨S_, .i32⟩ : BufTy).Contents (Elt F) → (⟨S4096x4096, .i32⟩ : BufTy).Contents (Elt F)),
    StableHlo.binary main_arg2 main_v0 main_v1 (cmpi .ne : (⟨S4096x4096, .i32⟩ : BufTy).Contents (Elt F) → (⟨S4096x4096, .i32⟩ : BufTy).Contents (Elt F) → (⟨S4096x4096, .i1⟩ : BufTy).Contents (Elt F)),
    StableHlo.unary main_v1 main_v2 ((extui 32 · natLt_1_32) : (⟨S4096x4096, .i1⟩ : BufTy).Contents (Elt F) → (⟨S4096x4096, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4096x4096, .i32⟩) (.of main_call0_call0_v0 : StableHlo.TRef sig ⟨S_, .i32⟩) (.of main_v3 : StableHlo.TRef sig ⟨S4096x4096, .i32⟩) (fun x v => Host.reduceWindow IntOp.addi ![1, 4096] ![1, 1] ![0, 4095] ![0, 0] x v reduceWindows_S4096x4096_S4096x4096_w1s1p0_0_w4096s1p4095_0 h_S_),
    StableHlo.nullary main_c_0 (constantI S_ 32 1#32),
    StableHlo.unary main_c_0 main_v4 (broadcastInDim S4096x4096 ![] bcast_S_S4096x4096 : (⟨S_, .i32⟩ : BufTy).Contents (Elt F) → (⟨S4096x4096, .i32⟩ : BufTy).Contents (Elt F)),
    StableHlo.binary main_v3 main_v4 main_v5 (subi : (⟨S4096x4096, .i32⟩ : BufTy).Contents (Elt F) → (⟨S4096x4096, .i32⟩ : BufTy).Contents (Elt F) → (⟨S4096x4096, .i32⟩ : BufTy).Contents (Elt F)),
    StableHlo.nullary main_c_1 (constantI S_ 32 0#32),
    StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4096x4096, .i32⟩) (broadcastInDim S4096x4096 ![] bcast_S_S4096x4096),
    StableHlo.TRef.binary (.of main_call1_v1 : StableHlo.TRef sig ⟨S4096x4096, .i32⟩) (.of main_v5 : StableHlo.TRef sig ⟨S4096x4096, .i32⟩) (.of main_v6 : StableHlo.TRef sig ⟨S4096x4096, .i32⟩) maxsi ]

/-- The gather along each row, as jax writes it out. -/
abbrev opsGather : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4096x4096, .i32⟩) (broadcastInDim S4096x4096 ![] bcast_S_S4096x4096),
    StableHlo.TRef.binary (.of main_v6 : StableHlo.TRef sig ⟨S4096x4096, .i32⟩) (.of main_call2_v0 : StableHlo.TRef sig ⟨S4096x4096, .i32⟩) (.of main_call2_v1 : StableHlo.TRef sig ⟨S4096x4096, .i1⟩) (cmpi .slt),
    StableHlo.TRef.nullary (.of main_call2_c_0 : StableHlo.TRef sig ⟨S_, .i32⟩) (constantI S_ 32 4096#32),
    StableHlo.TRef.unary (.of main_call2_c_0 : StableHlo.TRef sig ⟨S_, .i32⟩) (.of main_call2_v2 : StableHlo.TRef sig ⟨S4096x4096, .i32⟩) (broadcastInDim S4096x4096 ![] bcast_S_S4096x4096),
    StableHlo.TRef.binary (.of main_v6 : StableHlo.TRef sig ⟨S4096x4096, .i32⟩) (.of main_call2_v2 : StableHlo.TRef sig ⟨S4096x4096, .i32⟩) (.of main_call2_v3 : StableHlo.TRef sig ⟨S4096x4096, .i32⟩) addi,
    StableHlo.TRef.ternary (.of main_call2_v1 : StableHlo.TRef sig ⟨S4096x4096, .i1⟩) (.of main_call2_v3 : StableHlo.TRef sig ⟨S4096x4096, .i32⟩) (.of main_v6 : StableHlo.TRef sig ⟨S4096x4096, .i32⟩) (.of main_call2_v4 : StableHlo.TRef sig ⟨S4096x4096, .i32⟩) select,
    StableHlo.TRef.reshape (.of main_call2_v4 : StableHlo.TRef sig ⟨S4096x4096, .i32⟩) (.of main_call2_v5 : StableHlo.TRef sig ⟨S4096x4096x1, .i32⟩) rfl shapeCasts_S4096x4096_S4096x4096x1,
    StableHlo.TRef.nullary (.of main_call2_c_1 : StableHlo.TRef sig ⟨S1, .i32⟩) (constantI S1 32 4095#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4096x4096x1, .i32⟩) (broadcastInDim S4096x4096x1 ![] bcast_S_S4096x4096x1),
    StableHlo.TRef.binary (.of main_call2_v5 : StableHlo.TRef sig ⟨S4096x4096x1, .i32⟩) (.of main_call2_v6 : StableHlo.TRef sig ⟨S4096x4096x1, .i32⟩) (.of main_call2_v7 : StableHlo.TRef sig ⟨S4096x4096x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S4096x4096x1, .i32⟩) (broadcastInDim S4096x4096x1 ![0, 1, 2] bcast_S1x1x1_S4096x4096x1_0_1_2),
    StableHlo.TRef.binary (.of main_call2_v5 : StableHlo.TRef sig ⟨S4096x4096x1, .i32⟩) (.of main_call2_v9 : StableHlo.TRef sig ⟨S4096x4096x1, .i32⟩) (.of main_call2_v10 : StableHlo.TRef sig ⟨S4096x4096x1, .i1⟩) (cmpi .sle),
    StableHlo.TRef.binary (.of main_call2_v7 : StableHlo.TRef sig ⟨S4096x4096x1, .i1⟩) (.of main_call2_v10 : StableHlo.TRef sig ⟨S4096x4096x1, .i1⟩) (.of main_call2_v11 : StableHlo.TRef sig ⟨S4096x4096x1, .i1⟩) andi,
    StableHlo.TRef.nullary (.of main_call2_c_3 : StableHlo.TRef sig ⟨S_, .i1⟩) (constantI S_ 1 1#1),
    StableHlo.TRef.binary (.of main_call2_v11 : StableHlo.TRef sig ⟨S4096x4096x1, .i1⟩) (.of main_call2_c_3 : StableHlo.TRef sig ⟨S_, .i1⟩) (.of main_call2_v12 : StableHlo.TRef sig ⟨S4096x4096, .i1⟩) (fun x v => Host.reduce IntOp.andi x v reducesTo_S4096x4096x1_S4096x4096_d2 h_S_),
    StableHlo.TRef.binary (.of main_arg1 : StableHlo.TRef sig ⟨S4096x4096, .f32⟩) (.of main_call2_v5 : StableHlo.TRef sig ⟨S4096x4096x1, .i32⟩) (.of main_call2_v13 : StableHlo.TRef sig ⟨S4096x4096, .f32⟩) (fun x i => Host.gather gather_S4096x4096_S4096x4096x1_S4096x4096_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4096x4096, .f32⟩) (broadcastInDim S4096x4096 ![] bcast_S_S4096x4096),
    StableHlo.TRef.ternary (.of main_call2_v12 : StableHlo.TRef sig ⟨S4096x4096, .i1⟩) (.of main_call2_v13 : StableHlo.TRef sig ⟨S4096x4096, .f32⟩) (.of main_call2_v14 : StableHlo.TRef sig ⟨S4096x4096, .f32⟩) (.of main_v7 : StableHlo.TRef sig ⟨S4096x4096, .f32⟩) select ]

/-- The masked squared difference and its sum over every entry. -/
abbrev opsTail : List (HloOp τ sig (Elt F)) :=
  [ StableHlo.binary main_arg0 main_v7 main_v8 (subf : (⟨S4096x4096, .f32⟩ : BufTy).Contents (Elt F) → (⟨S4096x4096, .f32⟩ : BufTy).Contents (Elt F) → (⟨S4096x4096, .f32⟩ : BufTy).Contents (Elt F)),
    StableHlo.binary main_v8 main_v8 main_v9 (mulf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x00000000#32),
    StableHlo.TRef.unary (.of main_cst : StableHlo.TRef sig ⟨S_, .f32⟩) (.of main_call3_v0 : StableHlo.TRef sig ⟨S4096x4096, .f32⟩) (broadcastInDim S4096x4096 ![] bcast_S_S4096x4096),
    StableHlo.TRef.ternary (.of main_v1 : StableHlo.TRef sig ⟨S4096x4096, .i1⟩) (.of main_v9 : StableHlo.TRef sig ⟨S4096x4096, .f32⟩) (.of main_call3_v0 : StableHlo.TRef sig ⟨S4096x4096, .f32⟩) (.of main_v10 : StableHlo.TRef sig ⟨S4096x4096, .f32⟩) select,
    StableHlo.nullary main_cst_2 (constant S_ .f32 0x00000000#32),
    StableHlo.binary main_v10 main_cst_2 main_v11 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)) ]

/-- @main's 43 operations, in order. -/
abbrev ops : List (HloOp τ sig (Elt F)) :=
  [ StableHlo.nullary main_c (constantI S_ 32 0#32),
    StableHlo.unary main_c main_v0 (broadcastInDim S4096x4096 ![] bcast_S_S4096x4096 : (⟨S_, .i32⟩ : BufTy).Contents (Elt F) → (⟨S4096x4096, .i32⟩ : BufTy).Contents (Elt F)),
    StableHlo.binary main_arg2 main_v0 main_v1 (cmpi .ne : (⟨S4096x4096, .i32⟩ : BufTy).Contents (Elt F) → (⟨S4096x4096, .i32⟩ : BufTy).Contents (Elt F) → (⟨S4096x4096, .i1⟩ : BufTy).Contents (Elt F)),
    StableHlo.unary main_v1 main_v2 ((extui 32 · natLt_1_32) : (⟨S4096x4096, .i1⟩ : BufTy).Contents (Elt F) → (⟨S4096x4096, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4096x4096, .i32⟩) (.of main_call0_call0_v0 : StableHlo.TRef sig ⟨S_, .i32⟩) (.of main_v3 : StableHlo.TRef sig ⟨S4096x4096, .i32⟩) (fun x v => Host.reduceWindow IntOp.addi ![1, 4096] ![1, 1] ![0, 4095] ![0, 0] x v reduceWindows_S4096x4096_S4096x4096_w1s1p0_0_w4096s1p4095_0 h_S_),
    StableHlo.nullary main_c_0 (constantI S_ 32 1#32),
    StableHlo.unary main_c_0 main_v4 (broadcastInDim S4096x4096 ![] bcast_S_S4096x4096 : (⟨S_, .i32⟩ : BufTy).Contents (Elt F) → (⟨S4096x4096, .i32⟩ : BufTy).Contents (Elt F)),
    StableHlo.binary main_v3 main_v4 main_v5 (subi : (⟨S4096x4096, .i32⟩ : BufTy).Contents (Elt F) → (⟨S4096x4096, .i32⟩ : BufTy).Contents (Elt F) → (⟨S4096x4096, .i32⟩ : BufTy).Contents (Elt F)),
    StableHlo.nullary main_c_1 (constantI S_ 32 0#32),
    StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4096x4096, .i32⟩) (broadcastInDim S4096x4096 ![] bcast_S_S4096x4096),
    StableHlo.TRef.binary (.of main_call1_v1 : StableHlo.TRef sig ⟨S4096x4096, .i32⟩) (.of main_v5 : StableHlo.TRef sig ⟨S4096x4096, .i32⟩) (.of main_v6 : StableHlo.TRef sig ⟨S4096x4096, .i32⟩) maxsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4096x4096, .i32⟩) (broadcastInDim S4096x4096 ![] bcast_S_S4096x4096),
    StableHlo.TRef.binary (.of main_v6 : StableHlo.TRef sig ⟨S4096x4096, .i32⟩) (.of main_call2_v0 : StableHlo.TRef sig ⟨S4096x4096, .i32⟩) (.of main_call2_v1 : StableHlo.TRef sig ⟨S4096x4096, .i1⟩) (cmpi .slt),
    StableHlo.TRef.nullary (.of main_call2_c_0 : StableHlo.TRef sig ⟨S_, .i32⟩) (constantI S_ 32 4096#32),
    StableHlo.TRef.unary (.of main_call2_c_0 : StableHlo.TRef sig ⟨S_, .i32⟩) (.of main_call2_v2 : StableHlo.TRef sig ⟨S4096x4096, .i32⟩) (broadcastInDim S4096x4096 ![] bcast_S_S4096x4096),
    StableHlo.TRef.binary (.of main_v6 : StableHlo.TRef sig ⟨S4096x4096, .i32⟩) (.of main_call2_v2 : StableHlo.TRef sig ⟨S4096x4096, .i32⟩) (.of main_call2_v3 : StableHlo.TRef sig ⟨S4096x4096, .i32⟩) addi,
    StableHlo.TRef.ternary (.of main_call2_v1 : StableHlo.TRef sig ⟨S4096x4096, .i1⟩) (.of main_call2_v3 : StableHlo.TRef sig ⟨S4096x4096, .i32⟩) (.of main_v6 : StableHlo.TRef sig ⟨S4096x4096, .i32⟩) (.of main_call2_v4 : StableHlo.TRef sig ⟨S4096x4096, .i32⟩) select,
    StableHlo.TRef.reshape (.of main_call2_v4 : StableHlo.TRef sig ⟨S4096x4096, .i32⟩) (.of main_call2_v5 : StableHlo.TRef sig ⟨S4096x4096x1, .i32⟩) rfl shapeCasts_S4096x4096_S4096x4096x1,
    StableHlo.TRef.nullary (.of main_call2_c_1 : StableHlo.TRef sig ⟨S1, .i32⟩) (constantI S1 32 4095#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4096x4096x1, .i32⟩) (broadcastInDim S4096x4096x1 ![] bcast_S_S4096x4096x1),
    StableHlo.TRef.binary (.of main_call2_v5 : StableHlo.TRef sig ⟨S4096x4096x1, .i32⟩) (.of main_call2_v6 : StableHlo.TRef sig ⟨S4096x4096x1, .i32⟩) (.of main_call2_v7 : StableHlo.TRef sig ⟨S4096x4096x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S4096x4096x1, .i32⟩) (broadcastInDim S4096x4096x1 ![0, 1, 2] bcast_S1x1x1_S4096x4096x1_0_1_2),
    StableHlo.TRef.binary (.of main_call2_v5 : StableHlo.TRef sig ⟨S4096x4096x1, .i32⟩) (.of main_call2_v9 : StableHlo.TRef sig ⟨S4096x4096x1, .i32⟩) (.of main_call2_v10 : StableHlo.TRef sig ⟨S4096x4096x1, .i1⟩) (cmpi .sle),
    StableHlo.TRef.binary (.of main_call2_v7 : StableHlo.TRef sig ⟨S4096x4096x1, .i1⟩) (.of main_call2_v10 : StableHlo.TRef sig ⟨S4096x4096x1, .i1⟩) (.of main_call2_v11 : StableHlo.TRef sig ⟨S4096x4096x1, .i1⟩) andi,
    StableHlo.TRef.nullary (.of main_call2_c_3 : StableHlo.TRef sig ⟨S_, .i1⟩) (constantI S_ 1 1#1),
    StableHlo.TRef.binary (.of main_call2_v11 : StableHlo.TRef sig ⟨S4096x4096x1, .i1⟩) (.of main_call2_c_3 : StableHlo.TRef sig ⟨S_, .i1⟩) (.of main_call2_v12 : StableHlo.TRef sig ⟨S4096x4096, .i1⟩) (fun x v => Host.reduce IntOp.andi x v reducesTo_S4096x4096x1_S4096x4096_d2 h_S_),
    StableHlo.TRef.binary (.of main_arg1 : StableHlo.TRef sig ⟨S4096x4096, .f32⟩) (.of main_call2_v5 : StableHlo.TRef sig ⟨S4096x4096x1, .i32⟩) (.of main_call2_v13 : StableHlo.TRef sig ⟨S4096x4096, .f32⟩) (fun x i => Host.gather gather_S4096x4096_S4096x4096x1_S4096x4096_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4096x4096, .f32⟩) (broadcastInDim S4096x4096 ![] bcast_S_S4096x4096),
    StableHlo.TRef.ternary (.of main_call2_v12 : StableHlo.TRef sig ⟨S4096x4096, .i1⟩) (.of main_call2_v13 : StableHlo.TRef sig ⟨S4096x4096, .f32⟩) (.of main_call2_v14 : StableHlo.TRef sig ⟨S4096x4096, .f32⟩) (.of main_v7 : StableHlo.TRef sig ⟨S4096x4096, .f32⟩) select,
    StableHlo.binary main_arg0 main_v7 main_v8 (subf : (⟨S4096x4096, .f32⟩ : BufTy).Contents (Elt F) → (⟨S4096x4096, .f32⟩ : BufTy).Contents (Elt F) → (⟨S4096x4096, .f32⟩ : BufTy).Contents (Elt F)),
    StableHlo.binary main_v8 main_v8 main_v9 (mulf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x00000000#32),
    StableHlo.TRef.unary (.of main_cst : StableHlo.TRef sig ⟨S_, .f32⟩) (.of main_call3_v0 : StableHlo.TRef sig ⟨S4096x4096, .f32⟩) (broadcastInDim S4096x4096 ![] bcast_S_S4096x4096),
    StableHlo.TRef.ternary (.of main_v1 : StableHlo.TRef sig ⟨S4096x4096, .i1⟩) (.of main_v9 : StableHlo.TRef sig ⟨S4096x4096, .f32⟩) (.of main_call3_v0 : StableHlo.TRef sig ⟨S4096x4096, .f32⟩) (.of main_v10 : StableHlo.TRef sig ⟨S4096x4096, .f32⟩) select,
    StableHlo.nullary main_cst_2 (constant S_ .f32 0x00000000#32),
    StableHlo.binary main_v10 main_cst_2 main_v11 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)) ]

theorem ops_split : (ops : List (HloOp τ sig (Elt F))) = opsRank ++ (opsGather ++ opsTail) := rfl

set_option maxRecDepth 2048 in
/-- @main is that straight line: the functions' bodies written out at their calls, sequencing reassociated. -/
theorem main_eq (c : Dev nD) : main (F := F) c = seq ops := by
  simp only [main, fn_cumsum.body, fn_cumsum_0.body, fn_clip.body, fn_take_along_axis.body, fn_where.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., binary_bufs_sub .., nullary_bufs_sub .., unary_bufs_sub .., ternary_bufs_sub .., nullary_bufs_sub .., binary_bufs_sub ..⟩

/-- Every weakly fair execution of @main terminates, each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.SumValue.lean ====
/-
  The host's masked sum, read over the extended reals.

  The reference's last seven operations select, entry by entry, the squared difference of the prediction and the
  gathered target where the mask bit is set and the zero word elsewhere, and add everything up from the zero word.
  Over the extended reals the host's sum over both axes is the initial value plus the sum over all indices, which by
  coordinates is the double sum over rows and columns: the specification's `total`.
-/
import proofs.«175044_j48009144435087_1_alg».proof.Proof.Spec
import Idealize.ShloMosaic.PureOps.Ideal.Laws
import Idealize.ShloMosaic.Lib.ValueIdx

noncomputable section

namespace Cert.MaskedSq

open Idealize.ShloMosaic Idealize.ShloMosaic.ValueIdx

/-- The rank-0 shape of the result. -/
abbrev Scalar0 : Shape := ⟨0, ![]⟩

/-- The masked squared difference summed by the host from the zero word: the specification's total, at the result's
    one index. -/
theorem masked_sum (P G : Mat.Idx → Ideal .f32) (K : Mat.Idx → BitVec 32)
    (hb : Scalar0.BroadcastsInDim Mat (![] : Fin 0 → Fin Mat.rank)) (hr : Mat.ReducesTo [0, 1] Scalar0) (h0 : 0 < Scalar0.numel) :
    Host.reduceAdd (F := Ideal)
        (select (cmpi .ne K (broadcastInDim Mat ![] hb (constantI Scalar0 32 0#32)))
          (mulf (subf P G) (subf P G))
          (broadcastInDim Mat ![] hb (constant (F := Ideal) Scalar0 .f32 0x00000000#32)))
        (constant (F := Ideal) Scalar0 .f32 0x00000000#32) hr h0
      = fun _ => total P G K := by
  funext j
  show Ideal.hostReduceAdd hr _ _ j = _
  rw [Ideal.hostReduceAdd_total hr (fun b => b.elim0) _ _ j]
  unfold total
  congr 1
  rw [sum_idx2]
  unfold rowSum
  rfl

end Cert.MaskedSq

end
-- ==== Proof.RefValue.lean ====
/-
  What the reference's result holds.

  The reference's fold is read stretch by stretch.  The first stretch leaves the rank of the mask and the mask's
  nonzero bits, and touches neither the prediction nor the target; the second leaves the gather of the target at the
  rank it finds, and keeps the prediction and the mask bits; the third leaves the host's sum, from the zero word, of
  the squared difference of the prediction and the gathered target where the mask bit is set and of the zero word
  elsewhere.  Composed, and read over the extended reals, the result is the specification's `total` of the prediction,
  the gathered target of the target and the mask, and the mask.
-/
import proofs.«175044_j48009144435087_1_alg».proof.Proof.RefRun
import proofs.«175044_j48009144435087_1_alg».proof.Proof.LibTypedRef
import proofs.«175044_j48009144435087_1_alg».proof.Proof.SumValue

noncomputable section

namespace Cert.ReferenceIdeal.RefValue

open Cert.ReferenceIdeal Cert.ReferenceIdeal.Facts₀ Cert.ReferenceIdeal.RefRun Idealize.ShloMosaic Idealize.ShloMosaic.TcCoe
  Idealize.SL.Sem Idealize.ShloMosaic.StableHlo

variable {F : FTy → Type} [FloatOps F]

/-- The clipped rank of each masked position within its row: the running count of nonzero mask entries along the row
    (a windowed sum over the 4096 positions up to and including the entry's own), less one, and not below zero. -/
def rank (mask : IVec S4096x4096 32) : IVec S4096x4096 32 :=
  maxsi (broadcastInDim S4096x4096 ![] bcast_S_S4096x4096 (id (constantI S_ 32 0#32)))
    (subi
      (Host.reduceWindow IntOp.addi ![1, 4096] ![1, 1] ![0, 4095] ![0, 0]
        (extui 32 (cmpi .ne mask (broadcastInDim S4096x4096 ![] bcast_S_S4096x4096 (constantI S_ 32 0#32))) natLt_1_32)
        (broadcastInDim S_ ![] bcast_S_S_ (constantI S_ 32 0#32))
        reduceWindows_S4096x4096_S4096x4096_w1s1p0_0_w4096s1p4095_0 h_S_)
      (broadcastInDim S4096x4096 ![] bcast_S_S4096x4096 (constantI S_ 32 1#32)))

/-- Each row of `tgt` read at the row's indices `idx` (a negative index counted from the row's end; an index outside
    the row reads the not-a-number word instead). -/
def takeAlong (tgt : FVec F S4096x4096 .f32) (idx : IVec S4096x4096 32) : FVec F S4096x4096 .f32 :=
  let v4 : IVec S4096x4096 32 :=
    select (cmpi .slt idx (broadcastInDim S4096x4096 ![] bcast_S_S4096x4096 (constantI S_ 32 0#32)))
      (addi idx (broadcastInDim S4096x4096 ![] bcast_S_S4096x4096 (constantI S_ 32 4096#32))) idx
  let v5 : IVec S4096x4096x1 32 := shapeCast S4096x4096x1 v4 shapeCasts_S4096x4096_S4096x4096x1
  select
    (Host.reduce IntOp.andi
      (andi (cmpi .sge v5 (broadcastInDim S4096x4096x1 ![] bcast_S_S4096x4096x1 (constantI S_ 32 0#32)))
        (cmpi .sle v5 (broadcastInDim S4096x4096x1 ![0, 1, 2] bcast_S1x1x1_S4096x4096x1_0_1_2
          (broadcastInDim S1x1x1 ![2] bcast_S1_S1x1x1_2 (constantI S1 32 4095#32)))))
      (constantI S_ 1 1#1) reducesTo_S4096x4096x1_S4096x4096_d2 h_S_)
    (Host.gather gather_S4096x4096_S4096x4096x1_S4096x4096_n_1_0_0_1_2_11 tgt v5)
    (broadcastInDim S4096x4096 ![] bcast_S_S4096x4096 (constant S_ .f32 0x7FC00000#32))

/-- The target gathered into place: row by row, `tgt` at the clipped ranks of the mask. -/
def gathered (tgt : FVec F S4096x4096 .f32) (mask : IVec S4096x4096 32) : FVec F S4096x4096 .f32 :=
  takeAlong tgt (rank mask)

/-- The mask's nonzero bits. -/
def maskBits (mask : IVec S4096x4096 32) : IVec S4096x4096 1 :=
  cmpi .ne mask (broadcastInDim S4096x4096 ![] bcast_S_S4096x4096 (constantI S_ 32 0#32))

/-- The masked squared difference, summed by the host from the zero word. -/
def maskedSum (pred g : FVec F S4096x4096 .f32) (bits : IVec S4096x4096 1) : FVec F S_ .f32 :=
  Host.reduceAdd
    (select bits (mulf (subf pred g) (subf pred g))
      (broadcastInDim S4096x4096 ![] bcast_S_S4096x4096 (constant S_ .f32 0x00000000#32)))
    (constant S_ .f32 0x00000000#32) reducesTo_S4096x4096_S_d0_1 h_S_

attribute [local irreducible] Host.reduceWindow in
/-- The first stretch leaves the rank of the mask it finds, -/
theorem rank_stage (W : Valuation τ sig (Elt F)) :
    after opsRank W (main_v6 : DevRef τ sig) = rank (W (main_arg2 : DevRef τ sig)) := by
  after_results_simp
  simp only [TRef.ofBuf_toBuf, TRef.toBuf_ofBuf]
  rfl

attribute [local irreducible] Host.reduceWindow in
/-- and the mask's nonzero bits; -/
theorem bits_stage (W : Valuation τ sig (Elt F)) :
    after opsRank W (main_v1 : DevRef τ sig) = maskBits (W (main_arg2 : DevRef τ sig)) := by
  after_results_simp
  rfl

/-- it writes neither the prediction -/
theorem rank_keeps_pred (W : Valuation τ sig (Elt F)) :
    after opsRank W (main_arg0 : DevRef τ sig) = W (main_arg0 : DevRef τ sig) := by
  after_results_simp

/-- nor the target. -/
theorem rank_keeps_target (W : Valuation τ sig (Elt F)) :
    after opsRank W (main_arg1 : DevRef τ sig) = W (main_arg1 : DevRef τ sig) := by
  after_results_simp

attribute [local irreducible] Host.reduce Host.gather in
/-- The second stretch leaves the gather of the target and the rank it finds, -/
theorem gather_stage (W : Valuation τ sig (Elt F)) :
    after opsGather W (main_v7 : DevRef τ sig)
      = takeAlong (W (main_arg1 : DevRef τ sig)) (W (main_v6 : DevRef τ sig)) := by
  after_results_simp
  simp only [TRef.ofBuf_toBuf, TRef.toBuf_ofBuf]
  rfl

/-- and keeps the prediction -/
theorem gather_keeps_pred (W : Valuation τ sig (Elt F)) :
    after opsGather W (main_arg0 : DevRef τ sig) = W (main_arg0 : DevRef τ sig) := by
  after_results_simp

/-- and the mask bits. -/
theorem gather_keeps_bits (W : Valuation τ sig (Elt F)) :
    after opsGather W (main_v1 : DevRef τ sig) = W (main_v1 : DevRef τ sig) := by
  after_results_simp

attribute [local irreducible] Host.reduceAdd in
/-- The third stretch leaves the masked sum of what it finds. -/
theorem tail_stage (W : Valuation τ sig (Elt F)) :
    after opsTail W (main_v11 : DevRef τ sig)
      = maskedSum (W (main_arg0 : DevRef τ sig)) (W (main_v7 : DevRef τ sig)) (W (main_v1 : DevRef τ sig)) := by
  after_results_simp
  simp only [TRef.ofBuf_toBuf, TRef.toBuf_ofBuf]
  rfl

/-- The whole line's result, as a function of the three arguments it finds. -/
theorem result_eq (W : Valuation τ sig (Elt F)) :
    after ops W (main_v11 : DevRef τ sig)
      = maskedSum (W (main_arg0 : DevRef τ sig))
          (gathered (W (main_arg1 : DevRef τ sig)) (W (main_arg2 : DevRef τ sig))) (maskBits (W (main_arg2 : DevRef τ sig))) := by
  rw [ops_split, after_append, after_append, tail_stage, gather_keeps_pred, gather_keeps_bits, gather_stage, rank_keeps_pred,
    rank_keeps_target, bits_stage, rank_stage]
  rfl

/-- The line writes no argument. -/
theorem keeps_arg0 (W : Valuation τ sig (Elt F)) : after ops W (main_arg0 : DevRef τ sig) = W (main_arg0 : DevRef τ sig) := by
  after_results_simp
theorem keeps_arg1 (W : Valuation τ sig (Elt F)) : after ops W (main_arg1 : DevRef τ sig) = W (main_arg1 : DevRef τ sig) := by
  after_results_simp
theorem keeps_arg2 (W : Valuation τ sig (Elt F)) : after ops W (main_arg2 : DevRef τ sig) = W (main_arg2 : DevRef τ sig) := by
  after_results_simp

/-! ## The run, read -/

/-- Every weakly fair execution of the reference terminates with its result at the masked sum of the prediction, the
    gathered target and the mask bits of the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = maskedSum (m ((c.tc : Thread nD τ).loc main_arg0))
            (gathered (m ((c.tc : Thread nD τ).loc main_arg1)) (m ((c.tc : Thread nD τ).loc main_arg2)))
            (maskBits (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v11).trans (result_eq _), (h c main_arg0).trans (keeps_arg0 _), (h c main_arg1).trans (keeps_arg1 _),
      (h c main_arg2).trans (keeps_arg2 _)⟩)
    (run_main m ρ)

/-- Over the extended reals the masked sum is the specification's total. -/
theorem maskedSum_eq (pred g : FVec Ideal S4096x4096 .f32) (mask : IVec S4096x4096 32) :
    maskedSum (F := Ideal) pred g (maskBits mask) = fun _ => Cert.MaskedSq.total pred g mask :=
  Cert.MaskedSq.masked_sum pred g mask bcast_S_S4096x4096 reducesTo_S4096x4096_S_d0_1 h_S_

end Cert.ReferenceIdeal.RefValue

end
-- ==== Proof.Bridge.lean ====
/-
  The two programs gather the same target.

  Both programs compute the gathered target with the same host operations — the mask's nonzero test, the running count
  along each row, the clip at zero, the gather along the rows — each in its own printed text.  Written out as functions of
  the target and the mask the two are one function: the same operations on the same shapes, side conditions and
  all.  The certificate never looks inside the windowed sum, the reduction or the gather to see it.
-/
import proofs.«175044_j48009144435087_1_alg».proof.Proof.PreludeK
import proofs.«175044_j48009144435087_1_alg».proof.Proof.RefValue

noncomputable section

namespace Cert.Proof.Bridge

open Idealize.ShloMosaic

variable {F : FTy → Type} [FloatOps F]

attribute [local irreducible] Host.reduce Host.reduceWindow Host.gather in
/-- The reference's gathered target is the kernel program's. -/
theorem gathered_eq (tgt : FVec F Cert.KernelIdeal.S4096x4096 .f32) (mask : IVec Cert.KernelIdeal.S4096x4096 32) :
    Cert.ReferenceIdeal.RefValue.gathered tgt mask = Cert.KernelIdeal.Prelude.gathered tgt mask := rfl

end Cert.Proof.Bridge

end
-- ==== Proof.lean ====
/-
  The certificate: a masked squared error summed over a 4096 x 4096 matrix, by a tiled kernel and by a plain sum.

  Both programs first gather the target into place: from the mask they compute each position's rank among the nonzero
  entries of its row (a running count, less one, clipped at zero) and read the target's row at those ranks.  Then the
  entry `(i, c)` contributes the squared difference of the prediction and the gathered target where the mask is
  nonzero, and the zero word elsewhere, and the result is the zero word plus all contributions.

  The reference adds everything in one host sum over both axes.  The kernel walks the matrix in sixteen tiles of 256
  rows: each grid point sums its tile's rows over the columns, then the row sums, and adds that to a [1, 1] word it
  carries from point to point (reset to the zero word at the first point, copied to the output at the last); a
  reshape carries the output's one entry to the rank-0 result.  Over the extended reals addition is commutative and
  associative, so the tiles in order add up to the whole double sum: the two results are one number.  Nothing is
  cancelled or distributed, so the finiteness of the inputs is never used.

  The frames of the two kernel programs are the generated frame certificates; the reference's frame is its run with
  the result dropped; the kernel's idealization rewrote no operation.
-/
import proofs.«175044_j48009144435087_1_alg».proof.Defs
import proofs.«175044_j48009144435087_1_alg».proof.Proof.Gen.Kernel
import proofs.«175044_j48009144435087_1_alg».proof.Proof.Gen.Kernel.Skeleton
import proofs.«175044_j48009144435087_1_alg».proof.Proof.Gen.Kernel.Launch
import proofs.«175044_j48009144435087_1_alg».proof.Proof.Gen.Kernel.Points
import proofs.«175044_j48009144435087_1_alg».proof.Proof.Gen.Kernel.Frame
import proofs.«175044_j48009144435087_1_alg».proof.Proof.Gen.KernelIdeal
import proofs.«175044_j48009144435087_1_alg».proof.Proof.Gen.KernelIdeal.Skeleton
import proofs.«175044_j48009144435087_1_alg».proof.Proof.Gen.KernelIdeal.Launch
import proofs.«175044_j48009144435087_1_alg».proof.Proof.Gen.KernelIdeal.Points
import proofs.«175044_j48009144435087_1_alg».proof.Proof.Gen.KernelIdeal.Frame
import proofs.«175044_j48009144435087_1_alg».proof.Proof.Gen.ReferenceIdeal
import proofs.«175044_j48009144435087_1_alg».proof.Proof.Gen.Pre_finite_inputs
import proofs.«175044_j48009144435087_1_alg».proof.Proof.KernelRun
import proofs.«175044_j48009144435087_1_alg».proof.Proof.RefValue
import proofs.«175044_j48009144435087_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing: there is nothing to preserve. -/
theorem preserves : Cert.preserves_Kernel_KernelIdeal := trivial

/-- Both programs end with their result at the specification's total of the launched prediction, the gathered target
    of the launched target and mask, and the launched mask. -/
theorem algebraic : Cert.algebraic_KernelIdeal_ReferenceIdeal := by
  intro m ρ m' ρ' _ hagree
  refine ⟨fun c _ => Cert.MaskedSq.total (m ((c.tc : Thread Cert.KernelIdeal.nD Cert.KernelIdeal.τ).loc Cert.KernelIdeal.main_arg0))
      (Cert.KernelIdeal.Prelude.gathered (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KernelRun.run m ρ)
    exact funext fun _ => Cert.KernelIdeal.KernelRun.sumOf_eq m c
  · refine (θ_run Cert.ReferenceIdeal.defs _ _).mono (fun _ h c => ⟨(h c).1.trans ?_, (h c).2⟩)
      (Cert.ReferenceIdeal.RefValue.run (F := Ideal) m' ρ')
    rw [Cert.ReferenceIdeal.RefValue.maskedSum_eq, (hagree c).1, (hagree c).2.1, (hagree c).2.2, Cert.Proof.Bridge.gathered_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
